-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 23
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S100000x128, .bf16⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .bf16⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S128x128, .f32⟩
  | .hbm, ⟨21, _⟩ => ⟨S1x128, .f32⟩
  | .hbm, ⟨22, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v11) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.DenseRelu.lean ====
/-
  The dense layer applied to the aggregated node features, as one function of its three arrays.

  For a feature matrix A of 100000 rows and 128 columns, a weight matrix W of shape [128, 128] and a bias b of
  128 entries, the layer's output at row r and column j is

      max( (sum over k of A[r, k] * W[j, k]) + b[j], 0 ),

  that is relu(A * transpose(W) + b), read on the extended reals with their exact sum, product and maximum.
  Both programs end at this function of the same aggregated features; nothing in it is evaluated, and no
  finiteness of the entries is needed to compare the two sides, since both are literally this expression.
-/
import Idealize.ShloMosaic.Lib.ValueIdx

noncomputable section

namespace Cert.DenseRelu

open Idealize.ShloMosaic Idealize.ShloMosaic.ValueIdx

/-- Entry (r, j) of relu(A * transpose(W) + b). -/
def entry (A : (⟨2, ![100000, 128]⟩ : Shape).Idx → EReal) (W : (⟨2, ![128, 128]⟩ : Shape).Idx → EReal)
    (b : (⟨1, ![128]⟩ : Shape).Idx → EReal) (r : Fin 100000) (j : Fin 128) : EReal :=
  max ((∑ k : Fin 128, A (ix2 r k) * W (ix2 j k)) + b (ix1 j)) 0

/-- The whole output array: entry (r, j) at the index (r, j). -/
def layer (A : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => entry A W b (i 0) (i 1)

theorem layer_apply (A : (⟨2, ![100000, 128]⟩ : Shape).Idx → EReal) (W : (⟨2, ![128, 128]⟩ : Shape).Idx → EReal)
    (b : (⟨1, ![128]⟩ : Shape).Idx → EReal) (r : Fin 100000) (j : Fin 128) :
    layer A W b (ix2 r j) = entry A W b r j := rfl

end Cert.DenseRelu

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.BlockPayload.lean ====
/-
  What the kernel body computes on one block of rows, read at a local index.

  The body loads a block x0 of 10000 rows of the aggregated features, the whole transposed weight matrix x1
  and the bias row x2, multiplies x0 by x1 on the matrix unit into a zero accumulator, adds the bias row to
  every row and takes the maximum with zero.  At the ideal values the narrowing of the two operands to the
  matrix unit's input format is the identity and the product into the zero accumulator is the plain sum, so
  at the local index (p, q) the stored value is

      max( (sum over k of x0[p, k] * x1[k, q]) + x2[0, q], 0 ).
-/
import proofs.«134891_j47107201303323_2_alg».proof.Proof.Gen.KernelIdeal.Skeleton
import proofs.«134891_j47107201303323_2_alg».proof.Proof.LibPlainDot
import proofs.«134891_j47107201303323_2_alg».proof.Proof.LibRows
import Idealize.ShloMosaic.Lib.Pipeline.Value

noncomputable section

namespace Cert.KernelIdeal.BlockPayload

open Cert.KernelIdeal Cert.KernelIdeal.Gen Idealize.ShloMosaic Idealize.ShloMosaic.ValueIdx

/-- The stored block at the local index (p, q). -/
theorem payload_apply (x0 : Vec Ideal S10000x128 .f32) (x1 : Vec Ideal S128x128 .f32) (x2 : Vec Ideal S1x128 .f32)
    (p : Fin 10000) (q : Fin 128) :
    k0_pay1 x0 x1 x2 (ix2 p q) = max ((∑ k : Fin 128, x0 (ix2 p k) * x1 (ix2 k q)) + x2 (ix2 0 q)) 0 := by
  unfold k0_pay1
  rw [maximumf_apply, addf_apply, broadcast_apply, shapeCast_self, shapeCast_self, shapeCast_self,
    Cert.Lib.Rows.broadcastTo_row_apply]
  have hmm : matmul dot_S10000x128_S128x128_S10000x128_1_0_0_1_n_n none (truncf .bf16 x0 bitsLt_bf16_f32)
        (truncf .bf16 x1 bitsLt_bf16_f32) (constant (F := Ideal) S10000x128 .f32 0x00000000#32) (ix2 p q)
      = ∑ k : Fin 128, x0 (ix2 p k) * x1 (ix2 k q) :=
    Cert.Lib.PlainDot.matmul_plain_zero_apply none (truncf .bf16 x0 bitsLt_bf16_f32) (truncf .bf16 x1 bitsLt_bf16_f32) p q
  rw [hmm]
  show max _ (Ideal.ofBits .f32 0x00000000#32) = _
  rw [Ideal.ofBits_zero_f32]

end Cert.KernelIdeal.BlockPayload

end
-- ==== Proof.RegionInputs.lean ====
/-
  The three input arrays of the dense stage, as the region finds them.

  Before the region the program computes, on the host, (a) the aggregated features: the node features narrowed
  to the short float format, gathered along the edges' source nodes, widened again and summed into their
  destination nodes; (b) the transposed weight matrix; (c) the bias reshaped to a row.  At the ideal values
  narrowing and widening are the identity, so (a) is literally the reference's aggregation of the unconverted
  features: one gather and one scatter-add with the same dimension numbers, the same normalised source
  indices and the same zero-initialised target.  Neither the gather nor the scatter-add is opened.
-/
import proofs.«134891_j47107201303323_2_alg».proof.Proof.Gen.KernelIdeal.Frame
import proofs.«134891_j47107201303323_2_alg».proof.Proof.Gen.ReferenceIdeal.Read
import Idealize.ShloMosaic.Lib.StableHlo.Run

noncomputable section

open Idealize.ShloMosaic Idealize.ShloMosaic.TcCoe Idealize.SL.Sem

namespace Cert.KernelIdeal.RegionInputs

open Cert.KernelIdeal Cert.KernelIdeal.Gen

variable (m : (ℓ : Loc nD τ sig) → Buf (Elt Ideal) ℓ)

/-- The aggregated features: the sum, into each destination node, of the features of the source nodes of its
    incoming edges (the reference's own term for it, as a function of the three argument arrays). -/
abbrev aggregated (c : Dev nD) : S100000x128.Idx → EReal :=
  Cert.ReferenceIdeal.Read.val_main_v9 (F := Ideal) (m ((c : Thread nD τ).loc main_arg0)) (m ((c : Thread nD τ).loc main_arg1))
    (m ((c : Thread nD τ).loc main_arg2))

/-- The first window's array holds the aggregated features. -/
theorem features_eq (c : Dev nD) : (V m c main_v11 : S100000x128.Idx → EReal) = aggregated m c := by
  dsimp only [Gen.V, Gen.hostOps0]
  after_results <;> rfl

/-- The second window's array holds the transposed weight matrix. -/
theorem weights_eq (c : Dev nD) : (V m c main_v12 : S128x128.Idx → EReal)
    = transpose S128x128 [1, 0] (m ((c : Thread nD τ).loc main_arg3)) transposes_S128x128_S128x128_1_0 := by
  dsimp only [Gen.V, Gen.hostOps0]
  after_results <;> rfl

/-- The third window's array holds the bias as a row. -/
theorem bias_eq (c : Dev nD) : (V m c main_v13 : S1x128.Idx → EReal)
    = shapeCast S1x128 (m ((c : Thread nD τ).loc main_arg4)) shapeCasts_S128_S1x128 := by
  dsimp only [Gen.V, Gen.hostOps0]
  after_results <;> rfl

end Cert.KernelIdeal.RegionInputs

end
-- ==== Proof.RowBlocks.lean ====
/-
  From the ten blocks of rows to the whole output array.

  The grid has ten points; point t reads rows 10000 t … 10000 t + 9999 of the aggregated features, the whole
  transposed weight matrix and the whole bias row, and writes rows 10000 t … 10000 t + 9999 of the output.
  Row p of a block is row 10000 t + p of the whole array, the transposed weights read at (k, q) are the weights
  at (q, k), and the bias row read at (0, q) is the bias at q.  So what point t writes back is block t of the
  layer's output, read as one function of the argument arrays; the ten blocks tile the output (row r lies in
  block r / 10000), hence after the run the output array is that function.
-/
import proofs.«134891_j47107201303323_2_alg».proof.Proof.Gen.KernelIdeal.Value
import proofs.«134891_j47107201303323_2_alg».proof.Proof.DenseRelu
import proofs.«134891_j47107201303323_2_alg».proof.Proof.BlockPayload
import proofs.«134891_j47107201303323_2_alg».proof.Proof.RegionInputs
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.RowBlocks

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The layer's output as a function of the argument arrays: the dense layer of the aggregated features, the
    weights and the bias. -/
abbrev result (c : Dev nD) : S100000x128.Idx → EReal :=
  Cert.DenseRelu.layer (RegionInputs.aggregated m c) (m ((c : Thread nD τ).loc main_arg3)) (m ((c : Thread nD τ).loc main_arg4))

/-- One entry of a stored block is one entry of the layer: when row p of the block x0 is row r of A, column q of
    the block x1 is row q of W (the block holds W transposed), and entry (0, q) of x2 is entry q of b. -/
theorem entry_eq (A : S100000x128.Idx → EReal) (W : S128x128.Idx → EReal) (b : S128.Idx → EReal)
    (x0 : Vec Ideal S10000x128 .f32) (x1 : Vec Ideal S128x128 .f32) (x2 : Vec Ideal S1x128 .f32)
    (p : Fin 10000) (q : Fin 128) (r : Fin 100000)
    (h0 : ∀ k : Fin 128, x0 (ix2 p k) = A (ix2 r k))
    (h1 : ∀ k : Fin 128, x1 (ix2 k q) = W (ix2 q k))
    (h2 : x2 (ix2 0 q) = b (ix1 q)) :
    k0_pay1 x0 x1 x2 (ix2 p q) = Cert.DenseRelu.layer A W b (ix2 r q) := by
  rw [BlockPayload.payload_apply, Cert.DenseRelu.layer_apply]
  unfold Cert.DenseRelu.entry
  simp only [h0, h1, h2]

/-- The printed index maps, decided over the ten points: the features' block and the output's block are block t
    along the rows and the only block along the columns; the weights and the bias row are fetched whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features' block at point t is row 10000 t + p of the array. -/
theorem read_rows (t : Fin cfg0.N) (A : S100000x128.Idx → EReal) (p : Fin 10000) (k : Fin 128) (r : Fin 100000)
    (hr : r.val = t.val * 10000 + p.val) :
    ((cfg0.win 0).blk t).view.read (Elt Ideal) A (ix2 p k) = A (ix2 r k) := by
  obtain ⟨e00, e01, -⟩ := idx_facts t
  rw [View.read_apply]
  show A (((cfg0.win 0).blk t).view.emb (ix2 p k)) = A (ix2 r k)
  refine congrArg A (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The weights' block at every point is the whole array. -/
theorem read_weights (t : Fin cfg0.N) (A : S128x128.Idx → EReal) (y : S128x128.Idx) :
    ((cfg0.win 1).blk t).view.read (Elt Ideal) A y = A y := by
  obtain ⟨-, -, e10, e11, -⟩ := idx_facts t
  rw [View.read_apply]
  show A (((cfg0.win 1).blk t).view.emb y) = A y
  refine congrArg A (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block at every point is the whole row. -/
theorem read_bias (t : Fin cfg0.N) (A : S1x128.Idx → EReal) (y : S1x128.Idx) :
    ((cfg0.win 2).blk t).view.read (Elt Ideal) A y = A y := by
  obtain ⟨-, -, -, -, e20, e21, -⟩ := idx_facts t
  rw [View.read_apply]
  show A (((cfg0.win 2).blk t).view.emb y) = A y
  refine congrArg A (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- A block of 10000 rows P written back at point t is block t of an array G as soon as row p of P is row
    10000 t + p of G. -/
theorem block_rows (t : Fin cfg0.N) (P : S10000x128.Idx → EReal) (G : S100000x128.Idx → EReal)
    (h : ∀ (p : Fin 10000) (q : Fin 128) (r : Fin 100000), r.val = t.val * 10000 + p.val → P (ix2 p q) = G (ix2 r q)) :
    (cfg0.win 3).cut (grid0.coords t) P = ((cfg0.win 3).blk t).view.read (Elt Ideal) G := by
  obtain ⟨-, -, -, -, -, -, e30, e31⟩ := idx_facts t
  have ht : t.val < 10 := lt_of_lt_of_eq t.isLt N_0
  funext j
  rw [View.read_apply]
  have hj0 : (j 0).val < 10000 := (j 0).isLt
  have hj1 : (j 1).val < 128 := (j 1).isLt
  have hy : (cfg0.win 3).xinj (grid0.coords t) j = ix2 (⟨(j 0).val, hj0⟩ : Fin 10000) (⟨(j 1).val, hj1⟩ : Fin 128) := by
    funext a; apply Fin.ext
    match a with
    | ⟨0, _⟩ => rfl
    | ⟨1, _⟩ => rfl
  have hi : ((cfg0.win 3).blk t).view.emb j
      = ix2 (⟨t.val * 10000 + (j 0).val, by omega⟩ : Fin 100000) (⟨(j 1).val, hj1⟩ : Fin 128) := by
    funext a; apply Fin.ext
    match a with
    | ⟨0, _⟩ => show win0_3.index t (0 : Fin 2) * 10000 + 1 * (j 0).val = t.val * 10000 + (j 0).val; omega
    | ⟨1, _⟩ => show win0_3.index t (1 : Fin 2) * 128 + 1 * (j 1).val = (j 1).val; omega
  show P ((cfg0.win 3).xinj (grid0.coords t) j) = G (((cfg0.win 3).blk t).view.emb j)
  rw [hy, hi]
  exact h _ _ _ rfl

/-- Each input window's block at a point is that block of its array as the region finds it. -/
theorem iblk_eq (c : Dev nD) (w : Fin cfg0.W) (t : Fin cfg0.N) :
    iblk m c w t = ((cfg0.win w).blk t).view.read (Elt Ideal) (V m c (Pipeline.arrRef spec0 w)) := rfl

/-- What point t writes back is block t of the layer's output. -/
theorem flushed_eq (c : Dev nD) (t : Fin cfg0.N) :
    (dats m 0 c).flushed 3 t = ((cfg0.win 3).blk t).view.read (Elt Ideal) (result m c) := by
  rw [Value.flushed3]
  unfold Gen.out0_3
  rw [View.canon_unit_zero hz]
  simp only [View.ld_unit_zero (S := S10000x128) hz, View.ld_unit_zero (S := S128x128) hz, View.ld_unit_zero (S := S1x128) hz]
  refine block_rows t _ _ (fun p q r hr => ?_)
  refine entry_eq _ _ _ _ _ _ p q r (fun k => ?_) (fun k => ?_) ?_
  · rw [iblk_eq]
    exact (read_rows t _ p k r hr).trans (congrFun (RegionInputs.features_eq m c) _)
  · rw [iblk_eq]
    exact (read_weights t _ (ix2 k q)).trans
      ((congrFun (RegionInputs.weights_eq m c) _).trans (transpose_ix2_apply _ _ k q))
  · rw [iblk_eq]
    exact (read_bias t _ (ix2 0 q)).trans
      ((congrFun (RegionInputs.bias_eq m c) _).trans (Cert.Lib.Rows.shapeCast_vec_row_apply _ _ q))

/-- An index of the output array is in point t's block iff each coordinate is in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v14).slice (win0_3.rect t)).set ↔ _
  rw [View.set_slice_whole, Rect.mem_set_unit]
  exact Iff.rfl

/-- The ten blocks tile the output: row r lies in block r / 10000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  have hlt : (i 0).val / 10000 < cfg0.N := by rw [hN]; omega
  obtain ⟨-, -, -, -, -, -, e30, e31⟩ := idx_facts ⟨(i 0).val / 10000, hlt⟩
  have e30' : win0_3.index ⟨(i 0).val / 10000, hlt⟩ (0 : Fin 2) = (i 0).val / 10000 := e30
  refine ⟨⟨(i 0).val / 10000, hlt⟩, flush0_3 _, ?_⟩
  rw [mem_blk]
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    omega
  | ⟨1, _⟩ =>
    show win0_3.index ⟨(i 0).val / 10000, hlt⟩ (1 : Fin 2) * 128 ≤ (i 1).val
      ∧ (i 1).val < win0_3.index ⟨(i 0).val / 10000, hlt⟩ (1 : Fin 2) * 128 + 128
    omega

/-- After the run the output array is the layer's output. -/
theorem final (c : Dev nD) : (dats m 0 c).arrAt 3 cfg0.N = result m c :=
  (dats m 0 c).arrAt_eq_of_cover 3 (result m c) (fun t _ => flushed_eq m c t) cover

/-- The kernel's run, read: the result array ends at the layer's output, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RowBlocks

end
-- ==== Proof.ReferenceLayer.lean ====
/-
  The reference's result, read at an index, is the dense layer of its own aggregated features.

  The reference multiplies the aggregated features by the transposed weights with one whole matrix product, adds
  the bias broadcast over the rows and takes the maximum with zero.  Read at the index (r, j): the product is the
  sum over k of the features at (r, k) times the transposed weights at (k, j), which are the weights at (j, k);
  the broadcast bias is the bias at j; the zero array is zero.  That is entry (r, j) of the layer.
-/
import proofs.«134891_j47107201303323_2_alg».proof.Proof.Gen.ReferenceIdeal.Read
import proofs.«134891_j47107201303323_2_alg».proof.Proof.DenseRelu

noncomputable section

open Idealize.ShloMosaic Idealize.ShloMosaic.ValueIdx

namespace Cert.ReferenceIdeal.RefLayer

open Cert.ReferenceIdeal Cert.ReferenceIdeal.Gen Cert.ReferenceIdeal.Read

/-- The reference's last stage is the layer of the aggregated features, the weights and the bias. -/
theorem reference_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v15 (F := Ideal) x0 x1 x2 x3 x4 = Cert.DenseRelu.layer (val_main_v9 (F := Ideal) x0 x1 x2) x3 x4 := by
  funext i
  obtain ⟨r, j, rfl⟩ : ∃ (r : Fin 100000) (j : Fin 128), i = ix2 r j := ⟨i 0, i 1, eq_ix2 i⟩
  have el : ∀ k : Fin 128, lidx_main_v11 (ix2 r j) k = ix2 r k := fun k => funext fun a => Fin.ext (by
    match a with
    | ⟨0, _⟩ => rfl
    | ⟨1, _⟩ => rfl)
  have er : ∀ k : Fin 128, idx_main_v10 (ridx_main_v11 (ix2 r j) k) = ix2 j k := fun k => funext fun a => Fin.ext (by
    match a with
    | ⟨0, _⟩ => rfl
    | ⟨1, _⟩ => rfl)
  have eb : idx_main_v12 (idx_main_v13 (ix2 r j)) = ix1 j := funext fun a => Fin.ext (by
    match a with
    | ⟨0, _⟩ => rfl)
  rw [val_main_v15_apply, val_main_v14_apply, val_main_v11_apply, val_main_v13_apply, val_main_v12_apply,
    val_main_call0_v0_apply, val_main_call0_cst_apply]
  simp only [val_main_v10_apply, el, er, eb, Ideal.maximumf_def, Ideal.addf_def, Ideal.ofBits_def, Ideal.ofBits_zero_f32]
  rfl

end Cert.ReferenceIdeal.RefLayer

end
-- ==== Proof.lean ====
/-
  The layer relu(segment_sum(h[edge_src], edge_dst) * transpose(W) + b), computed in blocks of rows on the matrix
  unit, against the same layer computed by one whole matrix product.

  Both programs first aggregate the node features along the edges: the features of each edge's source node are
  gathered and summed into the edge's destination node.  The kernel gathers the features in the short float
  format and widens them again before summing; at the ideal values both format changes are the identity, so
  the two aggregations are one and the same term, and neither the gather nor the scatter-add is opened
  (Proof/RegionInputs.lean).  The dense stage then computes, at row r and column j,

      max( (sum over k of A[r, k] * W[j, k]) + b[j], 0 )        (Proof/DenseRelu.lean)

  of the aggregated features A.  The kernel does so on ten blocks of 10000 rows, each block multiplied by the
  whole transposed weight matrix into a zero accumulator (Proof/BlockPayload.lean); row p of block t is row
  10000 t + p of the whole array and the ten blocks tile the output (Proof/RowBlocks.lean).  The reference
  does so with one whole product, a broadcast bias and a maximum with the zero array (Proof/ReferenceLayer.lean).
  The two sides are literally the same expression of the same three arrays: no law of the extended reals is
  needed to join them, and the finiteness of the inputs is not used.

  The three frames are the generated ones (the reference's is its generated run with the result dropped); the
  kernel's idealization rewrote no operation, so there is nothing to preserve.
-/
import proofs.«134891_j47107201303323_2_alg».proof.Defs
import proofs.«134891_j47107201303323_2_alg».proof.Proof.Gen.Kernel
import proofs.«134891_j47107201303323_2_alg».proof.Proof.Gen.Kernel.Skeleton
import proofs.«134891_j47107201303323_2_alg».proof.Proof.Gen.Kernel.Launch
import proofs.«134891_j47107201303323_2_alg».proof.Proof.Gen.Kernel.Points
import proofs.«134891_j47107201303323_2_alg».proof.Proof.Gen.Kernel.Frame
import proofs.«134891_j47107201303323_2_alg».proof.Proof.Gen.KernelIdeal
import proofs.«134891_j47107201303323_2_alg».proof.Proof.Gen.KernelIdeal.Skeleton
import proofs.«134891_j47107201303323_2_alg».proof.Proof.Gen.KernelIdeal.Launch
import proofs.«134891_j47107201303323_2_alg».proof.Proof.Gen.KernelIdeal.Points
import proofs.«134891_j47107201303323_2_alg».proof.Proof.Gen.KernelIdeal.Frame
import proofs.«134891_j47107201303323_2_alg».proof.Proof.Gen.ReferenceIdeal
import proofs.«134891_j47107201303323_2_alg».proof.Proof.Gen.Pre_finite_inputs
import proofs.«134891_j47107201303323_2_alg».proof.Proof.Gen.KernelIdeal.Value
import proofs.«134891_j47107201303323_2_alg».proof.Proof.Gen.ReferenceIdeal.Run
import proofs.«134891_j47107201303323_2_alg».proof.Proof.Gen.ReferenceIdeal.Read
import proofs.«134891_j47107201303323_2_alg».proof.Proof.RowBlocks
import proofs.«134891_j47107201303323_2_alg».proof.Proof.ReferenceLayer
import Idealize.ShloMosaic.Adequacy
import Idealize.ShloMosaic.Init

noncomputable section

namespace Cert.Proof

open Idealize.ShloMosaic Idealize.SL.Sem Cert.Kernel

/-- The word-level kernel runs and leaves its arguments as they were: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal values both programs end with the dense layer of the aggregated features: the kernel block by
    block, the reference with one whole product, from argument arrays that agree. -/
theorem algebraic : Cert.algebraic_KernelIdeal_ReferenceIdeal := by
  intro m ρ m' ρ' _ hagree
  refine ⟨fun c => Cert.KernelIdeal.RowBlocks.result m c, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v15_eq]
  exact Cert.ReferenceIdeal.RefLayer.reference_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
